-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S20000x128 : Shape := ⟨2, ![20000, 128]⟩
abbrev S20000x64 : Shape := ⟨2, ![20000, 64]⟩
abbrev S1700000x64 : Shape := ⟨2, ![1700000, 64]⟩
abbrev S1x64 : Shape := ⟨2, ![1, 64]⟩
abbrev S100000x16 : Shape := ⟨2, ![100000, 16]⟩
abbrev S20000x16 : Shape := ⟨2, ![20000, 16]⟩
abbrev S1700000x16 : Shape := ⟨2, ![1700000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩

abbrev nBuf : Space → Nat
  | .hbm => 113
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x16, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x16, .f32⟩
  | .hbm, ⟨80, _⟩ => ⟨S1700000x16, .f32⟩
  | .hbm, ⟨81, _⟩ => ⟨S_, .f32⟩
  | .hbm, ⟨82, _⟩ => ⟨S100000x16, .f32⟩
  | .hbm, ⟨83, _⟩ => ⟨S1700000x1, .i32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S512x16, .f32⟩
  | .hbm, ⟨91, _⟩ => ⟨S100000x1, .i32⟩
  | .hbm, ⟨92, _⟩ => ⟨S512x16, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S512, .f32⟩
  | .hbm, ⟨97, _⟩ => ⟨S100000x1, .i32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512x1, .f32⟩
  | .hbm, ⟨103, _⟩ => ⟨S512x16, .f32⟩
  | .hbm, ⟨104, _⟩ => ⟨S512x16, .f32⟩
  | .hbm, ⟨105, _⟩ => ⟨S512x16, .f32⟩
  | .hbm, ⟨106, _⟩ => ⟨S512x16, .f32⟩
  | .hbm, ⟨107, _⟩ => ⟨S_, .f32⟩
  | .hbm, ⟨108, _⟩ => ⟨S512x16, .f32⟩
  | .hbm, ⟨109, _⟩ => ⟨S512x16, .f32⟩
  | .hbm, ⟨110, _⟩ => ⟨S_, .f32⟩
  | .hbm, ⟨111, _⟩ => ⟨S512x16, .f32⟩
  | .hbm, ⟨112, _⟩ => ⟨S512x16, .f32⟩
  | .local _ .vmem, ⟨0, _⟩ => ⟨S20000x128, .f32⟩
  | .local _ .vmem, ⟨1, _⟩ => ⟨S20000x128, .f32⟩
  | .local _ .vmem, ⟨2, _⟩ => ⟨S128x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S64x16, .f32⟩
  | .local _ .vmem, ⟨8, _⟩ => ⟨S20000x16, .f32⟩
  | .local _ .vmem, ⟨9, _⟩ => ⟨S20000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S20000x64_S20000x64_0_0 : ∀ a, (![0, 0] : Fin 2 → Nat) a + S20000x64.size a ≤ S20000x64.size a
  h_S20000x64 : 0 < S20000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S20000x64_S20000x64 : S20000x64.ShapeCasts S20000x64
  inb_S64x16_S64x16_0_0 : ∀ a, (![0, 0] : Fin 2 → Nat) a + S64x16.size a ≤ S64x16.size a
  h_S64x16 : 0 < S64x16.numel
  inb_S20000x16_S20000x16_0_0 : ∀ a, (![0, 0] : Fin 2 → Nat) a + S20000x16.size a ≤ S20000x16.size a
  h_S20000x16 : 0 < S20000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x128_S128x64_S20000x64_1_0_0_1_n_n_wf : DotDims.WF S20000x128 S128x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S20000x64_S64x16_S20000x16_1_0_0_1_n_n_wf : DotDims.WF S20000x64 S64x16 S20000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S100000x16.size a
  hwx1_2 : ∀ i : grid1.Coords, EltTy.bits .f32 = 32 ∨ (Rect.block (s := S100000x16) S20000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S20000x64_S64x16_S20000x16_1_0_0_1_n_n : DotDims S20000x64 S64x16 S20000x16 where
  lhsContracting := [1]
  rhsContracting := [0]
  lhsNonContracting := [0]
  rhsNonContracting := [1]
  lhsBatch := []
  rhsBatch := []
  wf := dot_S20000x64_S64x16_S20000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x16, .f32⟩
  | 6 => ⟨S16, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S100000x64, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S100000x16, .f32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S1700000x1, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x16, .f32⟩
  | 112 => ⟨S1700000x16, .f32⟩
  | 113 => ⟨S1700000x16, .f32⟩
  | 114 => ⟨S_, .f32⟩
  | 115 => ⟨S100000x16, .f32⟩
  | 116 => ⟨S1700000x1, .i32⟩
  | 117 => ⟨S100000x16, .f32⟩
  | 118 => ⟨S1x16, .f32⟩
  | 119 => ⟨S100000x16, .f32⟩
  | 120 => ⟨S100000x16, .f32⟩
  | 121 => ⟨S100000x16, .f32⟩
  | 122 => ⟨S_, .f32⟩
  | 123 => ⟨S512x16, .f32⟩
  | 124 => ⟨S100000x1, .i32⟩
  | 125 => ⟨S512x16, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S512, .f32⟩
  | 2 => ⟨S100000x1, .i32⟩
  | 3 => ⟨S512, .f32⟩
  | 4 => ⟨S_, .f32⟩
  | 5 => ⟨S512, .f32⟩
  | 6 => ⟨S512, .f32⟩
  | 7 => ⟨S512x1, .f32⟩
  | 8 => ⟨S512x16, .f32⟩
  | 9 => ⟨S512x16, .f32⟩
  | 10 => ⟨S512x16, .f32⟩
  | 11 => ⟨S512x16, .f32⟩
  | 12 => ⟨S_, .f32⟩
  | 13 => ⟨S512x16, .f32⟩
  | 14 => ⟨S512x16, .f32⟩
  | 15 => ⟨S_, .f32⟩
  | 16 => ⟨S512x16, .f32⟩
  | 17 => ⟨S512x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_c_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_cst_22 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_23 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_24 : Ref sig .tc := ⟨.hbm, 140, rfl⟩
abbrev main_v103 : Ref sig .tc := ⟨.hbm, 141, rfl⟩
abbrev main_v104 : Ref sig .tc := ⟨.hbm, 142, rfl⟩
abbrev main_cst_25 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KernelRun.lean ====
/-
  The idealized kernel program's run with its result named.

  The program is five stretches of host operations around two kernel launches. Its run ends with every buffer that
  outlives the launches at the last boundary's contents: the launch memory carried through each stretch by the
  stretch's operations and through each launch by what the launch's write-backs leave in its arrays. Here that is
  stated for the result buffer beside the seven argument buffers; what the last boundary's contents ARE, as a
  function of the arguments, is read in the modules that follow.
-/
import proofs.«179536_j7645041787420_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and ends with every buffer that is not a
    launch's private staging storage at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result buffer and at the seven arguments: the result ends at the last boundary's contents,
    the arguments as launched. -/
theorem run_result : θ_run defs (onTc (τ := τ) (main (F := F))) ⟨m, fun _ => 0, ρ⟩ (fun r => ∀ c : Dev nD,
      r.2.mem ((c.tc : Thread nD τ).loc main_v83) = W7 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v83 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)
    (run_all m ρ)

end Cert.KernelIdeal.RunValue

end
-- ==== Proof.Stages.lean ====
/-
  The host-side stages of a two-layer graph convolution with mean pooling, as pure functions of their operands.

  Both programs build the same graph data from the edge list: the endpoint lists `src`, `dst` (the edge list's two
  rows, each followed by the self loops `0, 1, …, n-1`), the degree of every node (a scatter-add of ones over `dst`),
  its inverse square root where the degree is positive and zero elsewhere, and the edge weight
  `norm = dinv[src] · dinv[dst]`. A layer maps node features `h` to `tanh (Σ_{edges into a node} norm · h[src] + b)`;
  the pooling divides the per-graph sums of the node features by the per-graph node counts (at least one), and the
  result is `1 / (1 + exp (-pooled))`. Everything here is stated for any float instance: the two programs apply
  exactly these operations, and differ only in how the two dense products between the stages are computed.
-/
import proofs.«179536_j7645041787420_1_alg».proof.Proof.Gen.KernelIdeal

noncomputable section

namespace Cert.KernelIdeal.Stages

open Idealize.ShloMosaic Cert.KernelIdeal Cert.KernelIdeal.Gen

variable {F : FTy → Type} [FloatOps F]

/-- The sources of all edges: row 0 of the edge list, then one self loop per node. -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The targets of all edges: row 1 of the edge list, then one self loop per node. -/
def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A per-edge list as a one-column array (the layout the gathers and scatters take their indices in). -/
def colOf {α : Type} (v : S1700000.Idx → α) : S1700000x1.Idx → α :=
  broadcastInDim S1700000x1 ![0] bcast_S1700000_S1700000x1_0 v

/-- Node indices with the negative ones counted from the end (`i < 0 ↦ i + n`). -/
def wrapOf (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The degree of every node: ones added up over the targets. -/
def degFrom (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (colOf d) (broadcastInDim S1700000 ![] bcast_S_S1700000 (constant S_ .f32 0x3F800000#32))

/-- `deg^(-1/2)` where the degree is positive, zero elsewhere. -/
def dinvFrom (d : (⟨S1700000, .i32⟩ : BufTy).Contents (Elt F)) : (⟨S100000, .f32⟩ : BufTy).Contents (Elt F) :=
  select (cmpf .ogt (degFrom d) (broadcastInDim S100000 ![] bcast_S_S100000 (constant S_ .f32 0x00000000#32))) (Host.rsqrt (degFrom d)) (broadcastInDim S100000 ![] bcast_S_S100000 (id (constant S_ .f32 0x00000000#32)))

/-- The weight of every edge: `dinv[src] · dinv[dst]`. -/
def normFrom (s d : (⟨S1700000, .i32⟩ : BufTy).Contents (Elt F)) : (⟨S1700000, .f32⟩ : BufTy).Contents (Elt F) :=
  mulf (Host.gather gather_S100000_S1700000x1_S1700000_n_0_n_n_0_1_1 (dinvFrom d) (colOf (wrapOf s))) (Host.gather gather_S100000_S1700000x1_S1700000_n_0_n_n_0_1_1 (dinvFrom d) (colOf (wrapOf d)))

/-- The first layer after its dense product `h`: weighted messages summed into their targets, plus the bias, through `tanh`. -/
def act64From (s d : (⟨S1700000, .i32⟩ : BufTy).Contents (Elt F)) (w : (⟨S1700000, .f32⟩ : BufTy).Contents (Elt F))
    (b : (⟨S64, .f32⟩ : BufTy).Contents (Elt F)) (h : (⟨S100000x64, .f32⟩ : BufTy).Contents (Elt F)) : (⟨S100000x64, .f32⟩ : BufTy).Contents (Elt F) :=
  Host.tanh (addf (Host.scatterAdd scatter_S100000x64_S1700000x1_S1700000x64_1_0_0_1 (broadcastInDim S100000x64 ![] bcast_S_S100000x64 (constant S_ .f32 0x00000000#32)) (colOf d)
      (mulf (broadcastInDim S1700000x64 ![0, 1] bcast_S1700000x1_S1700000x64_0_1 (colOf w)) (Host.gather gather_S100000x64_S1700000x1_S1700000x64_1_0_n_n_0_1_164 h (colOf (wrapOf s)))))
    (broadcastInDim S100000x64 ![0, 1] bcast_S1x64_S100000x64_0_1 (broadcastInDim S1x64 ![1] bcast_S64_S1x64_1 b)))

/-- The second layer after its dense product `h`, in the same form at width 16. -/
def act16From (s d : (⟨S1700000, .i32⟩ : BufTy).Contents (Elt F)) (w : (⟨S1700000, .f32⟩ : BufTy).Contents (Elt F))
    (b : (⟨S16, .f32⟩ : BufTy).Contents (Elt F)) (h : (⟨S100000x16, .f32⟩ : BufTy).Contents (Elt F)) : (⟨S100000x16, .f32⟩ : BufTy).Contents (Elt F) :=
  Host.tanh (addf (Host.scatterAdd scatter_S100000x16_S1700000x1_S1700000x16_1_0_0_1 (broadcastInDim S100000x16 ![] bcast_S_S100000x16 (constant S_ .f32 0x00000000#32)) (colOf d)
      (mulf (broadcastInDim S1700000x16 ![0, 1] bcast_S1700000x1_S1700000x16_0_1 (colOf w)) (Host.gather gather_S100000x16_S1700000x1_S1700000x16_1_0_n_n_0_1_116 h (colOf (wrapOf s)))))
    (broadcastInDim S100000x16 ![0, 1] bcast_S1x16_S100000x16_0_1 (broadcastInDim S1x16 ![1] bcast_S16_S1x16_1 b)))

/-- The mean of the node features over each graph: per-graph sums divided by the per-graph node counts, at least one. -/
def poolOf (g : (⟨S100000, .i32⟩ : BufTy).Contents (Elt F)) (h : (⟨S100000x16, .f32⟩ : BufTy).Contents (Elt F)) : (⟨S512x16, .f32⟩ : BufTy).Contents (Elt F) :=
  Host.divf (Host.scatterAdd scatter_S512x16_S100000x1_S100000x16_1_0_0_1 (broadcastInDim S512x16 ![] bcast_S_S512x16 (constant S_ .f32 0x00000000#32)) (broadcastInDim S100000x1 ![0] bcast_S100000_S100000x1_0 g) h)
    (broadcastInDim S512x16 ![0, 1] bcast_S512x1_S512x16_0_1 (broadcastInDim S512x1 ![0] bcast_S512_S512x1_0
      (maximumf (Host.scatterAdd scatter_S512_S100000x1_S100000_n_0_0_1 (broadcastInDim S512 ![] bcast_S_S512 (constant S_ .f32 0x00000000#32)) (broadcastInDim S100000x1 ![0] bcast_S100000_S100000x1_0 g) (broadcastInDim S100000 ![] bcast_S_S100000 (constant S_ .f32 0x3F800000#32)))
        (broadcastInDim S512 ![] bcast_S_S512 (constant S_ .f32 0x3F800000#32)))))

/-- The logistic function `1 / (1 + exp (-p))`, entry by entry. -/
def sigmoidOf (p : (⟨S512x16, .f32⟩ : BufTy).Contents (Elt F)) : (⟨S512x16, .f32⟩ : BufTy).Contents (Elt F) :=
  Host.divf (broadcastInDim S512x16 ![] bcast_S_S512x16 (constant S_ .f32 0x3F800000#32)) (addf (broadcastInDim S512x16 ![] bcast_S_S512x16 (constant S_ .f32 0x3F800000#32)) (Host.exp (Host.negf p)))

/-- The whole network after its two dense products are given as functions `P₁`, `P₂`: the one term both programs compute. -/
def network (P₁ : (⟨S100000x128, .f32⟩ : BufTy).Contents (Elt F) → (⟨S128x64, .f32⟩ : BufTy).Contents (Elt F) → (⟨S100000x64, .f32⟩ : BufTy).Contents (Elt F))
    (P₂ : (⟨S100000x64, .f32⟩ : BufTy).Contents (Elt F) → (⟨S64x16, .f32⟩ : BufTy).Contents (Elt F) → (⟨S100000x16, .f32⟩ : BufTy).Contents (Elt F))
    (x : (⟨S100000x128, .f32⟩ : BufTy).Contents (Elt F)) (e : (⟨S2x1600000, .i32⟩ : BufTy).Contents (Elt F)) (g : (⟨S100000, .i32⟩ : BufTy).Contents (Elt F))
    (w₁ : (⟨S128x64, .f32⟩ : BufTy).Contents (Elt F)) (b₁ : (⟨S64, .f32⟩ : BufTy).Contents (Elt F))
    (w₂ : (⟨S64x16, .f32⟩ : BufTy).Contents (Elt F)) (b₂ : (⟨S16, .f32⟩ : BufTy).Contents (Elt F)) : (⟨S512x16, .f32⟩ : BufTy).Contents (Elt F) :=
  sigmoidOf (poolOf g (act16From (srcOf e) (dstOf e) (normFrom (srcOf e) (dstOf e)) b₂
    (P₂ (act64From (srcOf e) (dstOf e) (normFrom (srcOf e) (dstOf e)) b₁ (P₁ x w₁)) w₂)))

end Cert.KernelIdeal.Stages

end
-- ==== Proof.KernelHost.lean ====
/-
  The host stretches of the idealized kernel program, read back as the shared stages.

  The program's host operations come in five stretches. Each stretch is read from ANY contents `V` of the buffers it
  starts from: the buffer a stage's last operation writes holds the stage's function of the buffers the stage reads,
  and a buffer no operation of the stretch writes keeps what it held. The statements are about one stretch each, so
  that the boundary contents the run names can be walked through them one at a time.
-/
import proofs.«179536_j7645041787420_1_alg».proof.Proof.Gen.KernelIdeal.Launch
import proofs.«179536_j7645041787420_1_alg».proof.Proof.Stages
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.Stages

variable {F : FTy → Type} [FloatOps F] (V : Valuation τ sig (Elt F))

/-! ## Before the first launch: the graph data -/

/-- The first stretch leaves the edge sources in their buffer. -/
theorem s0_src : after hostOps0 V (Proc.devRef .tc main_v3) = srcOf (V (Proc.devRef .tc main_arg1)) := by
  after_results; rfl
/-- … and the edge targets in theirs. -/
theorem s0_dst : after hostOps0 V (Proc.devRef .tc main_v6) = dstOf (V (Proc.devRef .tc main_arg1)) := by
  after_results; rfl
/-- Where the degree is positive. -/
theorem s0_pos : after hostOps0 V (Proc.devRef .tc main_v12)
    = cmpf .ogt (degFrom (dstOf (V (Proc.devRef .tc main_arg1)))) (broadcastInDim S100000 ![] bcast_S_S100000 (constant S_ .f32 0x00000000#32)) := by
  after_results; rfl
/-- The inverse square roots of the degrees. -/
theorem s0_rsqrt : after hostOps0 V (Proc.devRef .tc main_v13) = Host.rsqrt (degFrom (dstOf (V (Proc.devRef .tc main_arg1)))) := by
  after_results; rfl
/-- The zero that stands where the degree is not positive. -/
theorem s0_zero : after hostOps0 V (Proc.devRef .tc main_cst_2) = constant S_ .f32 0x00000000#32 := by
  after_results

/-- The selection between the two, from the three buffers it reads. -/
theorem s1_dinv : after hostOps0_1 V (Proc.devRef .tc main_v14)
    = select (V (Proc.devRef .tc main_v12)) (V (Proc.devRef .tc main_v13)) (broadcastInDim S100000 ![] bcast_S_S100000 (id (V (Proc.devRef .tc main_cst_2)))) := by
  after_results; rfl
theorem s1_src : after hostOps0_1 V (Proc.devRef .tc main_v3) = V (Proc.devRef .tc main_v3) := by after_results
theorem s1_dst : after hostOps0_1 V (Proc.devRef .tc main_v6) = V (Proc.devRef .tc main_v6) := by after_results

/-- The edge weights, from the buffers of the inverse square roots and of the endpoints. -/
theorem s2_norm : after hostOps0_2 V (Proc.devRef .tc main_v29)
    = mulf (Host.gather gather_S100000_S1700000x1_S1700000_n_0_n_n_0_1_1 (V (Proc.devRef .tc main_v14)) (colOf (wrapOf (V (Proc.devRef .tc main_v3)))))
        (Host.gather gather_S100000_S1700000x1_S1700000_n_0_n_n_0_1_1 (V (Proc.devRef .tc main_v14)) (colOf (wrapOf (V (Proc.devRef .tc main_v6))))) := by
  after_results_simp <;> rfl
theorem s2_src : after hostOps0_2 V (Proc.devRef .tc main_v3) = V (Proc.devRef .tc main_v3) := by after_results
theorem s2_dst : after hostOps0_2 V (Proc.devRef .tc main_v6) = V (Proc.devRef .tc main_v6) := by after_results

/-- The arguments the later stages read are written by none of these operations. -/
theorem s0_main_arg0 : after hostOps0 V (Proc.devRef .tc main_arg0) = V (Proc.devRef .tc main_arg0) := by after_results
theorem s0_main_arg2 : after hostOps0 V (Proc.devRef .tc main_arg2) = V (Proc.devRef .tc main_arg2) := by after_results
theorem s0_main_arg3 : after hostOps0 V (Proc.devRef .tc main_arg3) = V (Proc.devRef .tc main_arg3) := by after_results
theorem s0_main_arg4 : after hostOps0 V (Proc.devRef .tc main_arg4) = V (Proc.devRef .tc main_arg4) := by after_results
theorem s0_main_arg5 : after hostOps0 V (Proc.devRef .tc main_arg5) = V (Proc.devRef .tc main_arg5) := by after_results
theorem s0_main_arg6 : after hostOps0 V (Proc.devRef .tc main_arg6) = V (Proc.devRef .tc main_arg6) := by after_results
theorem s1_main_arg0 : after hostOps0_1 V (Proc.devRef .tc main_arg0) = V (Proc.devRef .tc main_arg0) := by after_results
theorem s1_main_arg2 : after hostOps0_1 V (Proc.devRef .tc main_arg2) = V (Proc.devRef .tc main_arg2) := by after_results
theorem s1_main_arg3 : after hostOps0_1 V (Proc.devRef .tc main_arg3) = V (Proc.devRef .tc main_arg3) := by after_results
theorem s1_main_arg4 : after hostOps0_1 V (Proc.devRef .tc main_arg4) = V (Proc.devRef .tc main_arg4) := by after_results
theorem s1_main_arg5 : after hostOps0_1 V (Proc.devRef .tc main_arg5) = V (Proc.devRef .tc main_arg5) := by after_results
theorem s1_main_arg6 : after hostOps0_1 V (Proc.devRef .tc main_arg6) = V (Proc.devRef .tc main_arg6) := by after_results
theorem s2_main_arg0 : after hostOps0_2 V (Proc.devRef .tc main_arg0) = V (Proc.devRef .tc main_arg0) := by after_results
theorem s2_main_arg2 : after hostOps0_2 V (Proc.devRef .tc main_arg2) = V (Proc.devRef .tc main_arg2) := by after_results
theorem s2_main_arg3 : after hostOps0_2 V (Proc.devRef .tc main_arg3) = V (Proc.devRef .tc main_arg3) := by after_results
theorem s2_main_arg4 : after hostOps0_2 V (Proc.devRef .tc main_arg4) = V (Proc.devRef .tc main_arg4) := by after_results
theorem s2_main_arg5 : after hostOps0_2 V (Proc.devRef .tc main_arg5) = V (Proc.devRef .tc main_arg5) := by after_results
theorem s2_main_arg6 : after hostOps0_2 V (Proc.devRef .tc main_arg6) = V (Proc.devRef .tc main_arg6) := by after_results

/-! ## Between the launches: the first layer after its product -/

theorem s3_act : after hostOps1 V (Proc.devRef .tc main_v47)
    = act64From (V (Proc.devRef .tc main_v3)) (V (Proc.devRef .tc main_v6)) (V (Proc.devRef .tc main_v29)) (V (Proc.devRef .tc main_arg4)) (V (Proc.devRef .tc main_v30)) := by
  after_results_simp <;> rfl
theorem s3_src : after hostOps1 V (Proc.devRef .tc main_v3) = V (Proc.devRef .tc main_v3) := by after_results
theorem s3_dst : after hostOps1 V (Proc.devRef .tc main_v6) = V (Proc.devRef .tc main_v6) := by after_results
theorem s3_norm : after hostOps1 V (Proc.devRef .tc main_v29) = V (Proc.devRef .tc main_v29) := by after_results

theorem s3_main_arg2 : after hostOps1 V (Proc.devRef .tc main_arg2) = V (Proc.devRef .tc main_arg2) := by after_results
theorem s3_main_arg5 : after hostOps1 V (Proc.devRef .tc main_arg5) = V (Proc.devRef .tc main_arg5) := by after_results
theorem s3_main_arg6 : after hostOps1 V (Proc.devRef .tc main_arg6) = V (Proc.devRef .tc main_arg6) := by after_results

/-! ## After the second launch: the second layer after its product, the pooling, the logistic function -/

theorem s4_out : after hostOps2 V (Proc.devRef .tc main_v83)
    = sigmoidOf (poolOf (V (Proc.devRef .tc main_arg2)) (act16From (V (Proc.devRef .tc main_v3)) (V (Proc.devRef .tc main_v6)) (V (Proc.devRef .tc main_v29)) (V (Proc.devRef .tc main_arg6)) (V (Proc.devRef .tc main_v48)))) := by
  after_results_simp <;> rfl

end Cert.KernelIdeal.HostValue

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Region0.lean ====
/-
  Launch 0 of the idealized kernel program: the array it leaves is a plain matrix product.

  The launch walks five row blocks of 20000 rows. At each block the body multiplies the block of the left array by
  the whole right array (the change of float format in front of the product is the identity on the extended reals,
  and the accumulator starts at zero), and writes the product back as the same rows of the result. So entry
  `(r, j)` of the result is `∑ k, x (r, k) · w (k, j)`: the blocks are restrictions of one whole-array function, and
  together they cover the result.
-/
import proofs.«179536_j7645041787420_1_alg».proof.Proof.Gen.KernelIdeal.Frame
import proofs.«179536_j7645041787420_1_alg».proof.Proof.LibPlainMatmul
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of a `100000 × 128` by a `128 × 64` array, entry by entry. -/
def prod (x : FVec Ideal S100000x128 .f32) (w : FVec Ideal S128x64 .f32) : FVec Ideal S100000x64 .f32 :=
  fun i => ∑ k : Fin 128, x (ix2 (⟨(i 0).val, (i 0).isLt⟩ : Fin 100000) k) * w (ix2 k (⟨(i 1).val, (i 1).isLt⟩ : Fin 64))

/-- What the body stores, at a row and a column of the block: the row of the left block against the column of the right array. -/
theorem pay_apply (x0 : Vec Ideal S20000x128 .f32) (x1 : Vec Ideal S128x64 .f32) (p : Fin 20000) (q : Fin 64) :
    k0_pay1 x0 x1 (ix2 p q) = ∑ k : Fin 128, x0 (ix2 p k) * x1 (ix2 k q) := by
  unfold k0_pay1
  exact Cert.LibPlainMatmul.matmul_zero_apply dot_S20000x128_S128x64_S20000x64_1_0_0_1_n_n rfl rfl rfl rfl rfl rfl none _ _ p q

theorem hz : (![0, 0] : Fin 2 → Nat) = fun _ => 0 := funext fun a => by fin_cases a <;> rfl

/-- The printed index maps, decided over the five points: the left window and the result window sit on row block `t`,
    the right window on the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the launch finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S20000x128) hz, View.ld_unit_zero (S := S128x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k0_pay1 (iblk0 V c 0 t) (iblk0 V c 1 t) (ix2 p q) = prod (V c main_arg0) (V c main_arg3) (((cfg0.win 2).blk t).view.emb (ix2 p q))
  rw [pay_apply]
  unfold prod
  refine Finset.sum_congr rfl fun k _ => ?_
  refine congrArg₂ (· * ·) ?_ ?_
  · show V c main_arg0 (((cfg0.win 0).blk t).view.emb (ix2 p k)) = _
    refine congrArg (V c main_arg0) (funext fun a => Fin.ext ?_)
    match a with
    | ⟨0, _⟩ => show win0_0.index t (0 : Fin 2) * 20000 + 1 * p.val = win0_2.index t (0 : Fin 2) * 20000 + 1 * p.val; omega
    | ⟨1, _⟩ => show win0_0.index t (1 : Fin 2) * 128 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v30).slice (win0_2.rect t)).set ↔ _
  rw [View.set_slice_whole, Rect.mem_set_unit]
  exact Iff.rfl

/-- The five row blocks cover the result: row `r` is in block `r / 20000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 20000, by show (i 0).val / 20000 < 5; omega⟩, flush0_2 _, ?_⟩
  rw [mem_blk]
  obtain ⟨e0, e1, e2, e3, e4, e5⟩ := idx_facts ⟨(i 0).val / 20000, by show (i 0).val / 20000 < 5; omega⟩
  intro a
  match a with
  | ⟨0, _⟩ => show win0_2.index _ (0 : Fin 2) * 20000 ≤ (i 0).val ∧ (i 0).val < win0_2.index _ (0 : Fin 2) * 20000 + 20000; rw [e4]; show (i 0).val / 20000 * 20000 ≤ (i 0).val ∧ (i 0).val < (i 0).val / 20000 * 20000 + 20000; omega
  | ⟨1, _⟩ => show win0_2.index _ (1 : Fin 2) * 64 ≤ (i 1).val ∧ (i 1).val < win0_2.index _ (1 : Fin 2) * 64 + 64; rw [e5]; omega

/-- The array the launch leaves: the product of the two arrays as the launch finds them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Region1.lean ====
/-
  Launch 1 of the idealized kernel program: the array it leaves is a plain matrix product.

  The launch walks five row blocks of 20000 rows. At each block the body multiplies the block of the left array by
  the whole right array (the change of float format in front of the product is the identity on the extended reals,
  and the accumulator starts at zero), and writes the product back as the same rows of the result. So entry
  `(r, j)` of the result is `∑ k, x (r, k) · w (k, j)`: the blocks are restrictions of one whole-array function, and
  together they cover the result.
-/
import proofs.«179536_j7645041787420_1_alg».proof.Proof.Gen.KernelIdeal.Frame
import proofs.«179536_j7645041787420_1_alg».proof.Proof.LibPlainMatmul
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of a `100000 × 64` by a `64 × 16` array, entry by entry. -/
def prod (x : FVec Ideal S100000x64 .f32) (w : FVec Ideal S64x16 .f32) : FVec Ideal S100000x16 .f32 :=
  fun i => ∑ k : Fin 64, x (ix2 (⟨(i 0).val, (i 0).isLt⟩ : Fin 100000) k) * w (ix2 k (⟨(i 1).val, (i 1).isLt⟩ : Fin 16))

/-- What the body stores, at a row and a column of the block: the row of the left block against the column of the right array. -/
theorem pay_apply (x0 : Vec Ideal S20000x64 .f32) (x1 : Vec Ideal S64x16 .f32) (p : Fin 20000) (q : Fin 16) :
    k1_pay1 x0 x1 (ix2 p q) = ∑ k : Fin 64, x0 (ix2 p k) * x1 (ix2 k q) := by
  unfold k1_pay1
  rw [shapeCast_self]
  exact Cert.LibPlainMatmul.matmul_zero_apply dot_S20000x64_S64x16_S20000x16_1_0_0_1_n_n rfl rfl rfl rfl rfl rfl none _ _ p q

theorem hz : (![0, 0] : Fin 2 → Nat) = fun _ => 0 := funext fun a => by fin_cases a <;> rfl

/-- The printed index maps, decided over the five points: the left window and the result window sit on row block `t`,
    the right window on the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the product of the two arrays as the launch finds them. -/
theorem flushed_eq (c : Dev nD) (t : Fin cfg1.N) :
    (dat1 V c).flushed 2 t = ((cfg1.win 2).blk t).view.read (Elt Ideal) (prod (V c main_v47) (V c main_arg5)) := by
  show (cfg1.win 2).cut (grid1.coords t) ((dat1 V c).after 2 t) = _
  rw [after1_2]
  unfold out1_2
  rw [View.canon_unit_zero hz]
  simp only [View.ld_unit_zero (S := S20000x64) hz, View.ld_unit_zero (S := S64x16) hz]
  obtain ⟨e0, e1, e2, e3, e4, e5⟩ := idx_facts t
  funext j
  obtain ⟨p, q, rfl⟩ : ∃ (p : Fin 20000) (q : Fin 16), j = ix2 p q := ⟨j 0, j 1, eq_ix2 j⟩
  show k1_pay1 (iblk1 V c 0 t) (iblk1 V c 1 t) (ix2 p q) = prod (V c main_v47) (V c main_arg5) (((cfg1.win 2).blk t).view.emb (ix2 p q))
  rw [pay_apply]
  unfold prod
  refine Finset.sum_congr rfl fun k _ => ?_
  refine congrArg₂ (· * ·) ?_ ?_
  · show V c main_v47 (((cfg1.win 0).blk t).view.emb (ix2 p k)) = _
    refine congrArg (V c main_v47) (funext fun a => Fin.ext ?_)
    match a with
    | ⟨0, _⟩ => show win1_0.index t (0 : Fin 2) * 20000 + 1 * p.val = win1_2.index t (0 : Fin 2) * 20000 + 1 * p.val; omega
    | ⟨1, _⟩ => show win1_0.index t (1 : Fin 2) * 64 + 1 * k.val = k.val; omega
  · show V c main_arg5 (((cfg1.win 1).blk t).view.emb (ix2 k q)) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 16 + 1 * q.val = win1_2.index t (1 : Fin 2) * 16 + 1 * q.val; omega

/-- An index of the result is in point `t`'s block iff each coordinate is in the block's range on its axis. -/
theorem mem_blk (t : Fin cfg1.N) (i : S100000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v48).slice (win1_2.rect t)).set ↔ _
  rw [View.set_slice_whole, Rect.mem_set_unit]
  exact Iff.rfl

/-- The five row blocks cover the result: row `r` is in block `r / 20000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  refine ⟨⟨(i 0).val / 20000, by show (i 0).val / 20000 < 5; omega⟩, flush1_2 _, ?_⟩
  rw [mem_blk]
  obtain ⟨e0, e1, e2, e3, e4, e5⟩ := idx_facts ⟨(i 0).val / 20000, by show (i 0).val / 20000 < 5; omega⟩
  intro a
  match a with
  | ⟨0, _⟩ => show win1_2.index _ (0 : Fin 2) * 20000 ≤ (i 0).val ∧ (i 0).val < win1_2.index _ (0 : Fin 2) * 20000 + 20000; rw [e4]; show (i 0).val / 20000 * 20000 ≤ (i 0).val ∧ (i 0).val < (i 0).val / 20000 * 20000 + 20000; omega
  | ⟨1, _⟩ => show win1_2.index _ (1 : Fin 2) * 16 ≤ (i 1).val ∧ (i 1).val < win1_2.index _ (1 : Fin 2) * 16 + 16; rw [e5]; omega

/-- The array the launch leaves: the product of the two arrays as the launch finds them. -/
theorem final (c : Dev nD) : (dat1 V c).arrAt 2 cfg1.N = prod (V c main_v47) (V c main_arg5) :=
  (dat1 V c).arrAt_eq_of_cover 2 (prod (V c main_v47) (V c main_arg5)) (fun t _ => flushed_eq V c t) cover

end Cert.KernelIdeal.Region1

end
-- ==== Proof.KernelValue.lean ====
/-
  The idealized kernel program's result as one function of its arguments.

  The run ends with the result buffer at the last boundary's contents. Walking the boundaries back: the last stretch
  applies the second layer, the pooling and the logistic function to what the second launch left; the second launch
  left the product of the first layer's output with the second weight matrix; the middle stretch applied the first
  layer to what the first launch left; the first launch left the product of the features with the first weight
  matrix; and the graph data every stage reads were computed once, before the first launch, and are written by
  nothing after. So the result is the shared network term with plain matrix products between its stages.
-/
import proofs.«179536_j7645041787420_1_alg».proof.Proof.Gen.KernelIdeal.Frame
import proofs.«179536_j7645041787420_1_alg».proof.Proof.KernelHost
import proofs.«179536_j7645041787420_1_alg».proof.Proof.Region0
import proofs.«179536_j7645041787420_1_alg».proof.Proof.Region1

set_option maxRecDepth 16384

noncomputable section

namespace Cert.KernelIdeal.ClosedForm

open Idealize.ShloMosaic Idealize.ShloMosaic.TcCoe Idealize.SL.Sem Idealize.ShloMosaic.StableHlo
open Cert.KernelIdeal Cert.KernelIdeal.Gen Cert.KernelIdeal.Stages Cert.KernelIdeal.HostValue

variable (m : (ℓ : Loc nD τ sig) → Buf (Elt Ideal) ℓ) (ρ : Dev nD → PrngReg) (c : Dev nD)

/-! ## At the first launch's entry -/

theorem W3_src : W3 m ρ c (Proc.devRef .tc main_v3) = srcOf (m ((c.tc : Thread nD τ).loc main_arg1)) :=
  (s2_src (W2 m ρ c)).trans ((s1_src (W1 m ρ c)).trans (s0_src (W0 m ρ c)))
theorem W3_dst : W3 m ρ c (Proc.devRef .tc main_v6) = dstOf (m ((c.tc : Thread nD τ).loc main_arg1)) :=
  (s2_dst (W2 m ρ c)).trans ((s1_dst (W1 m ρ c)).trans (s0_dst (W0 m ρ c)))
theorem W3_main_arg0 : W3 m ρ c (Proc.devRef .tc main_arg0) = (m ((c.tc : Thread nD τ).loc main_arg0)) :=
  (s2_main_arg0 (W2 m ρ c)).trans ((s1_main_arg0 (W1 m ρ c)).trans (s0_main_arg0 (W0 m ρ c)))
theorem W3_main_arg2 : W3 m ρ c (Proc.devRef .tc main_arg2) = (m ((c.tc : Thread nD τ).loc main_arg2)) :=
  (s2_main_arg2 (W2 m ρ c)).trans ((s1_main_arg2 (W1 m ρ c)).trans (s0_main_arg2 (W0 m ρ c)))
theorem W3_main_arg3 : W3 m ρ c (Proc.devRef .tc main_arg3) = (m ((c.tc : Thread nD τ).loc main_arg3)) :=
  (s2_main_arg3 (W2 m ρ c)).trans ((s1_main_arg3 (W1 m ρ c)).trans (s0_main_arg3 (W0 m ρ c)))
theorem W3_main_arg4 : W3 m ρ c (Proc.devRef .tc main_arg4) = (m ((c.tc : Thread nD τ).loc main_arg4)) :=
  (s2_main_arg4 (W2 m ρ c)).trans ((s1_main_arg4 (W1 m ρ c)).trans (s0_main_arg4 (W0 m ρ c)))
theorem W3_main_arg5 : W3 m ρ c (Proc.devRef .tc main_arg5) = (m ((c.tc : Thread nD τ).loc main_arg5)) :=
  (s2_main_arg5 (W2 m ρ c)).trans ((s1_main_arg5 (W1 m ρ c)).trans (s0_main_arg5 (W0 m ρ c)))
theorem W3_main_arg6 : W3 m ρ c (Proc.devRef .tc main_arg6) = (m ((c.tc : Thread nD τ).loc main_arg6)) :=
  (s2_main_arg6 (W2 m ρ c)).trans ((s1_main_arg6 (W1 m ρ c)).trans (s0_main_arg6 (W0 m ρ c)))

theorem W1_pos : W1 m ρ c (Proc.devRef .tc main_v12)
    = cmpf .ogt (degFrom (dstOf (m ((c.tc : Thread nD τ).loc main_arg1)))) (broadcastInDim S100000 ![] bcast_S_S100000 (constant S_ .f32 0x00000000#32)) := s0_pos (W0 m ρ c)
theorem W1_rsqrt : W1 m ρ c (Proc.devRef .tc main_v13) = Host.rsqrt (degFrom (dstOf (m ((c.tc : Thread nD τ).loc main_arg1)))) := s0_rsqrt (W0 m ρ c)
theorem W1_zero : W1 m ρ c (Proc.devRef .tc main_cst_2) = constant (F := Ideal) S_ .f32 0x00000000#32 := s0_zero (W0 m ρ c)
theorem W2_src : W2 m ρ c (Proc.devRef .tc main_v3) = srcOf (m ((c.tc : Thread nD τ).loc main_arg1)) := (s1_src (W1 m ρ c)).trans (s0_src (W0 m ρ c))
theorem W2_dst : W2 m ρ c (Proc.devRef .tc main_v6) = dstOf (m ((c.tc : Thread nD τ).loc main_arg1)) := (s1_dst (W1 m ρ c)).trans (s0_dst (W0 m ρ c))
/-- The inverse square roots of the degrees, zero where the degree is not positive. -/
theorem W2_dinv : W2 m ρ c (Proc.devRef .tc main_v14) = dinvFrom (dstOf (m ((c.tc : Thread nD τ).loc main_arg1))) := by
  refine (s1_dinv (W1 m ρ c)).trans ?_
  rw [W1_pos, W1_rsqrt, W1_zero]
  rfl

/-- The edge weights: the inverse square roots of the degrees gathered at both endpoints and multiplied. -/
theorem W3_norm : W3 m ρ c (Proc.devRef .tc main_v29) = normFrom (srcOf (m ((c.tc : Thread nD τ).loc main_arg1))) (dstOf (m ((c.tc : Thread nD τ).loc main_arg1))) := by
  refine (s2_norm (W2 m ρ c)).trans ?_
  rw [W2_dinv, W2_src, W2_dst]
  rfl

/-! ## At the first launch's exit -/

/-- The first launch leaves the product of the features with the first weight matrix. -/
theorem W4_prod : W4 m ρ c (Proc.devRef .tc main_v30) = Region0.prod (m ((c.tc : Thread nD τ).loc main_arg0)) (m ((c.tc : Thread nD τ).loc main_arg3)) := by
  refine (W4_arr m ρ c 2).trans ((Region0.final (V3 m ρ) c).trans ?_)
  rw [show V3 m ρ c main_arg0 = (m ((c.tc : Thread nD τ).loc main_arg0)) from W3_main_arg0 m ρ c, show V3 m ρ c main_arg3 = (m ((c.tc : Thread nD τ).loc main_arg3)) from W3_main_arg3 m ρ c]
theorem W4_src : W4 m ρ c (Proc.devRef .tc main_v3) = srcOf (m ((c.tc : Thread nD τ).loc main_arg1)) := (W4_of_ne m ρ c main_v3 (by decide)).trans (W3_src m ρ c)
theorem W4_dst : W4 m ρ c (Proc.devRef .tc main_v6) = dstOf (m ((c.tc : Thread nD τ).loc main_arg1)) := (W4_of_ne m ρ c main_v6 (by decide)).trans (W3_dst m ρ c)
theorem W4_norm : W4 m ρ c (Proc.devRef .tc main_v29) = normFrom (srcOf (m ((c.tc : Thread nD τ).loc main_arg1))) (dstOf (m ((c.tc : Thread nD τ).loc main_arg1))) :=
  (W4_of_ne m ρ c main_v29 (by decide)).trans (W3_norm m ρ c)
theorem W4_main_arg2 : W4 m ρ c (Proc.devRef .tc main_arg2) = (m ((c.tc : Thread nD τ).loc main_arg2)) := (W4_of_ne m ρ c main_arg2 (by decide)).trans (W3_main_arg2 m ρ c)
theorem W4_main_arg4 : W4 m ρ c (Proc.devRef .tc main_arg4) = (m ((c.tc : Thread nD τ).loc main_arg4)) := (W4_of_ne m ρ c main_arg4 (by decide)).trans (W3_main_arg4 m ρ c)
theorem W4_main_arg5 : W4 m ρ c (Proc.devRef .tc main_arg5) = (m ((c.tc : Thread nD τ).loc main_arg5)) := (W4_of_ne m ρ c main_arg5 (by decide)).trans (W3_main_arg5 m ρ c)
theorem W4_main_arg6 : W4 m ρ c (Proc.devRef .tc main_arg6) = (m ((c.tc : Thread nD τ).loc main_arg6)) := (W4_of_ne m ρ c main_arg6 (by decide)).trans (W3_main_arg6 m ρ c)

/-! ## At the second launch's entry -/

/-- The first layer's output. -/
theorem W5_act : W5 m ρ c (Proc.devRef .tc main_v47)
    = act64From (srcOf (m ((c.tc : Thread nD τ).loc main_arg1))) (dstOf (m ((c.tc : Thread nD τ).loc main_arg1))) (normFrom (srcOf (m ((c.tc : Thread nD τ).loc main_arg1))) (dstOf (m ((c.tc : Thread nD τ).loc main_arg1)))) (m ((c.tc : Thread nD τ).loc main_arg4))
        (Region0.prod (m ((c.tc : Thread nD τ).loc main_arg0)) (m ((c.tc : Thread nD τ).loc main_arg3))) := by
  refine (s3_act (W4 m ρ c)).trans ?_
  rw [W4_src, W4_dst, W4_norm, W4_main_arg4, W4_prod]
theorem W5_src : W5 m ρ c (Proc.devRef .tc main_v3) = srcOf (m ((c.tc : Thread nD τ).loc main_arg1)) := (s3_src (W4 m ρ c)).trans (W4_src m ρ c)
theorem W5_dst : W5 m ρ c (Proc.devRef .tc main_v6) = dstOf (m ((c.tc : Thread nD τ).loc main_arg1)) := (s3_dst (W4 m ρ c)).trans (W4_dst m ρ c)
theorem W5_norm : W5 m ρ c (Proc.devRef .tc main_v29) = normFrom (srcOf (m ((c.tc : Thread nD τ).loc main_arg1))) (dstOf (m ((c.tc : Thread nD τ).loc main_arg1))) :=
  (s3_norm (W4 m ρ c)).trans (W4_norm m ρ c)
theorem W5_main_arg2 : W5 m ρ c (Proc.devRef .tc main_arg2) = (m ((c.tc : Thread nD τ).loc main_arg2)) := (s3_main_arg2 (W4 m ρ c)).trans (W4_main_arg2 m ρ c)
theorem W5_main_arg5 : W5 m ρ c (Proc.devRef .tc main_arg5) = (m ((c.tc : Thread nD τ).loc main_arg5)) := (s3_main_arg5 (W4 m ρ c)).trans (W4_main_arg5 m ρ c)
theorem W5_main_arg6 : W5 m ρ c (Proc.devRef .tc main_arg6) = (m ((c.tc : Thread nD τ).loc main_arg6)) := (s3_main_arg6 (W4 m ρ c)).trans (W4_main_arg6 m ρ c)

/-! ## At the second launch's exit -/

/-- The second launch leaves the product of the first layer's output with the second weight matrix. -/
theorem W6_prod : W6 m ρ c (Proc.devRef .tc main_v48)
    = Region1.prod (act64From (srcOf (m ((c.tc : Thread nD τ).loc main_arg1))) (dstOf (m ((c.tc : Thread nD τ).loc main_arg1))) (normFrom (srcOf (m ((c.tc : Thread nD τ).loc main_arg1))) (dstOf (m ((c.tc : Thread nD τ).loc main_arg1)))) (m ((c.tc : Thread nD τ).loc main_arg4))
        (Region0.prod (m ((c.tc : Thread nD τ).loc main_arg0)) (m ((c.tc : Thread nD τ).loc main_arg3)))) (m ((c.tc : Thread nD τ).loc main_arg5)) := by
  refine (W6_arr m ρ c 2).trans ((Region1.final (V5 m ρ) c).trans ?_)
  rw [show V5 m ρ c main_v47 = _ from W5_act m ρ c, show V5 m ρ c main_arg5 = (m ((c.tc : Thread nD τ).loc main_arg5)) from W5_main_arg5 m ρ c]
theorem W6_src : W6 m ρ c (Proc.devRef .tc main_v3) = srcOf (m ((c.tc : Thread nD τ).loc main_arg1)) := (W6_of_ne m ρ c main_v3 (by decide)).trans (W5_src m ρ c)
theorem W6_dst : W6 m ρ c (Proc.devRef .tc main_v6) = dstOf (m ((c.tc : Thread nD τ).loc main_arg1)) := (W6_of_ne m ρ c main_v6 (by decide)).trans (W5_dst m ρ c)
theorem W6_norm : W6 m ρ c (Proc.devRef .tc main_v29) = normFrom (srcOf (m ((c.tc : Thread nD τ).loc main_arg1))) (dstOf (m ((c.tc : Thread nD τ).loc main_arg1))) :=
  (W6_of_ne m ρ c main_v29 (by decide)).trans (W5_norm m ρ c)
theorem W6_main_arg2 : W6 m ρ c (Proc.devRef .tc main_arg2) = (m ((c.tc : Thread nD τ).loc main_arg2)) := (W6_of_ne m ρ c main_arg2 (by decide)).trans (W5_main_arg2 m ρ c)
theorem W6_main_arg6 : W6 m ρ c (Proc.devRef .tc main_arg6) = (m ((c.tc : Thread nD τ).loc main_arg6)) := (W6_of_ne m ρ c main_arg6 (by decide)).trans (W5_main_arg6 m ρ c)

/-! ## The result -/

/-- The result buffer at the last boundary: the shared network term of the arguments, with plain matrix products
    between its stages. -/
theorem result : W7 m ρ c (Proc.devRef .tc main_v83)
    = network Region0.prod Region1.prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (s4_out (W6 m ρ c)).trans ?_
  rw [W6_src, W6_dst, W6_norm, W6_main_arg2, W6_main_arg6, W6_prod]
  rfl

end Cert.KernelIdeal.ClosedForm

end
-- ==== Proof.RefValue.lean ====
/-
  The reference program's fold of host operations, read back as the shared stages.

  The reference is one line of 139 host operations. It is cut into five consecutive stretches — the endpoint lists;
  the first dense product and the edge weights; the first layer and the second dense product; the edge weights
  computed a second time; the second layer, the pooling and the logistic function — and each stretch is read from ANY
  contents of the buffers it starts from, as the stage's function of the buffers it reads. The second computation
  of the edge weights is the same function of the same endpoint lists as the first, which is why the reference's result
  is the shared network term with the host's two dense products in it.
-/
import proofs.«179536_j7645041787420_1_alg».proof.Proof.RefOps
import proofs.«179536_j7645041787420_1_alg».proof.Proof.Stages

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.ValueP Cert.KernelIdeal.Stages

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The endpoint lists (7 operations). -/
abbrev opsA : List (HloOp τ sig (Elt F)) := (ops (F := F)).take 7
/-- The first dense product and the edge weights (34 operations). -/
abbrev opsB : List (HloOp τ sig (Elt F)) := ((ops (F := F)).drop 7).take 34
/-- The first layer after its product, and the second dense product (21 operations). -/
abbrev opsC : List (HloOp τ sig (Elt F)) := ((ops (F := F)).drop 41).take 21
/-- The edge weights once more (33 operations). -/
abbrev opsD : List (HloOp τ sig (Elt F)) := ((ops (F := F)).drop 62).take 33
/-- The second layer after its product, the pooling and the logistic function (44 operations). -/
abbrev opsE : List (HloOp τ sig (Elt F)) := (ops (F := F)).drop 95

theorem ops_split : (ops (F := F)) = opsA ++ (opsB ++ (opsC ++ (opsD ++ opsE))) := rfl

/-- The whole fold is the five stretches' folds in turn. -/
theorem after_ops (V : Valuation τ sig (Elt F)) :
    after ops V = after opsE (after opsD (after opsC (after opsB (after opsA V)))) :=
  (congrArg (fun l => after l V) ops_split).trans (by simp only [after_append])

variable (V : Valuation τ sig (Elt F))

section A
theorem a_src : after opsA V (Proc.devRef .tc main_v3) = srcOf (V (Proc.devRef .tc main_arg1)) := by
  simp only [opsA, ops, List.take_succ_cons, List.take_zero]
  after_results; rfl
theorem a_dst : after opsA V (Proc.devRef .tc main_v6) = dstOf (V (Proc.devRef .tc main_arg1)) := by
  simp only [opsA, ops, List.take_succ_cons, List.take_zero]
  after_results; rfl
theorem a_main_arg0 : after opsA V (Proc.devRef .tc main_arg0) = V (Proc.devRef .tc main_arg0) := by
  simp only [opsA, ops, List.take_succ_cons, List.take_zero]
  after_results
theorem a_main_arg2 : after opsA V (Proc.devRef .tc main_arg2) = V (Proc.devRef .tc main_arg2) := by
  simp only [opsA, ops, List.take_succ_cons, List.take_zero]
  after_results
theorem a_main_arg3 : after opsA V (Proc.devRef .tc main_arg3) = V (Proc.devRef .tc main_arg3) := by
  simp only [opsA, ops, List.take_succ_cons, List.take_zero]
  after_results
theorem a_main_arg4 : after opsA V (Proc.devRef .tc main_arg4) = V (Proc.devRef .tc main_arg4) := by
  simp only [opsA, ops, List.take_succ_cons, List.take_zero]
  after_results
theorem a_main_arg5 : after opsA V (Proc.devRef .tc main_arg5) = V (Proc.devRef .tc main_arg5) := by
  simp only [opsA, ops, List.take_succ_cons, List.take_zero]
  after_results
theorem a_main_arg6 : after opsA V (Proc.devRef .tc main_arg6) = V (Proc.devRef .tc main_arg6) := by
  simp only [opsA, ops, List.take_succ_cons, List.take_zero]
  after_results
end A

/-! ## The first dense product and the edge weights -/

theorem b_prod : after opsB V (Proc.devRef .tc main_v7)
    = Host.dotGeneral dot_S100000x128_S128x64_S100000x64_1_0_0_1_n_n none (V (Proc.devRef .tc main_arg0)) (V (Proc.devRef .tc main_arg3)) := by
  simp only [opsB, ops, List.drop_succ_cons, List.drop_zero, List.take_succ_cons, List.take_zero]
  after_results_simp <;> rfl
theorem b_norm : after opsB V (Proc.devRef .tc main_v30) = normFrom (V (Proc.devRef .tc main_v3)) (V (Proc.devRef .tc main_v6)) := by
  simp only [opsB, ops, List.drop_succ_cons, List.drop_zero, List.take_succ_cons, List.take_zero]
  after_results_simp <;> rfl
theorem b_main_v3 : after opsB V (Proc.devRef .tc main_v3) = V (Proc.devRef .tc main_v3) := by
  simp only [opsB, ops, List.drop_succ_cons, List.drop_zero, List.take_succ_cons, List.take_zero]
  after_results
theorem b_main_v6 : after opsB V (Proc.devRef .tc main_v6) = V (Proc.devRef .tc main_v6) := by
  simp only [opsB, ops, List.drop_succ_cons, List.drop_zero, List.take_succ_cons, List.take_zero]
  after_results
theorem b_main_arg2 : after opsB V (Proc.devRef .tc main_arg2) = V (Proc.devRef .tc main_arg2) := by
  simp only [opsB, ops, List.drop_succ_cons, List.drop_zero, List.take_succ_cons, List.take_zero]
  after_results
theorem b_main_arg4 : after opsB V (Proc.devRef .tc main_arg4) = V (Proc.devRef .tc main_arg4) := by
  simp only [opsB, ops, List.drop_succ_cons, List.drop_zero, List.take_succ_cons, List.take_zero]
  after_results
theorem b_main_arg5 : after opsB V (Proc.devRef .tc main_arg5) = V (Proc.devRef .tc main_arg5) := by
  simp only [opsB, ops, List.drop_succ_cons, List.drop_zero, List.take_succ_cons, List.take_zero]
  after_results
theorem b_main_arg6 : after opsB V (Proc.devRef .tc main_arg6) = V (Proc.devRef .tc main_arg6) := by
  simp only [opsB, ops, List.drop_succ_cons, List.drop_zero, List.take_succ_cons, List.take_zero]
  after_results

/-! ## The first layer after its product, and the second dense product -/

theorem c_prod : after opsC V (Proc.devRef .tc main_v48)
    = Host.dotGeneral dot_S100000x64_S64x16_S100000x16_1_0_0_1_n_n none
        (act64From (V (Proc.devRef .tc main_v3)) (V (Proc.devRef .tc main_v6)) (V (Proc.devRef .tc main_v30)) (V (Proc.devRef .tc main_arg4)) (V (Proc.devRef .tc main_v7))) (V (Proc.devRef .tc main_arg5)) := by
  simp only [opsC, ops, List.drop_succ_cons, List.drop_zero, List.take_succ_cons, List.take_zero]
  after_results_simp <;> rfl
theorem c_main_v3 : after opsC V (Proc.devRef .tc main_v3) = V (Proc.devRef .tc main_v3) := by
  simp only [opsC, ops, List.drop_succ_cons, List.drop_zero, List.take_succ_cons, List.take_zero]
  after_results
theorem c_main_v6 : after opsC V (Proc.devRef .tc main_v6) = V (Proc.devRef .tc main_v6) := by
  simp only [opsC, ops, List.drop_succ_cons, List.drop_zero, List.take_succ_cons, List.take_zero]
  after_results
theorem c_main_arg2 : after opsC V (Proc.devRef .tc main_arg2) = V (Proc.devRef .tc main_arg2) := by
  simp only [opsC, ops, List.drop_succ_cons, List.drop_zero, List.take_succ_cons, List.take_zero]
  after_results
theorem c_main_arg6 : after opsC V (Proc.devRef .tc main_arg6) = V (Proc.devRef .tc main_arg6) := by
  simp only [opsC, ops, List.drop_succ_cons, List.drop_zero, List.take_succ_cons, List.take_zero]
  after_results

/-! ## The edge weights, computed again from the same endpoint lists -/

theorem d_norm : after opsD V (Proc.devRef .tc main_v71) = normFrom (V (Proc.devRef .tc main_v3)) (V (Proc.devRef .tc main_v6)) := by
  simp only [opsD, ops, List.drop_succ_cons, List.drop_zero, List.take_succ_cons, List.take_zero]
  after_results_simp <;> rfl
theorem d_main_v3 : after opsD V (Proc.devRef .tc main_v3) = V (Proc.devRef .tc main_v3) := by
  simp only [opsD, ops, List.drop_succ_cons, List.drop_zero, List.take_succ_cons, List.take_zero]
  after_results
theorem d_main_v6 : after opsD V (Proc.devRef .tc main_v6) = V (Proc.devRef .tc main_v6) := by
  simp only [opsD, ops, List.drop_succ_cons, List.drop_zero, List.take_succ_cons, List.take_zero]
  after_results
theorem d_main_v48 : after opsD V (Proc.devRef .tc main_v48) = V (Proc.devRef .tc main_v48) := by
  simp only [opsD, ops, List.drop_succ_cons, List.drop_zero, List.take_succ_cons, List.take_zero]
  after_results
theorem d_main_arg2 : after opsD V (Proc.devRef .tc main_arg2) = V (Proc.devRef .tc main_arg2) := by
  simp only [opsD, ops, List.drop_succ_cons, List.drop_zero, List.take_succ_cons, List.take_zero]
  after_results
theorem d_main_arg6 : after opsD V (Proc.devRef .tc main_arg6) = V (Proc.devRef .tc main_arg6) := by
  simp only [opsD, ops, List.drop_succ_cons, List.drop_zero, List.take_succ_cons, List.take_zero]
  after_results

/-! ## The second layer after its product, the pooling, the logistic function -/

theorem e_out : after opsE V (Proc.devRef .tc main_v106)
    = sigmoidOf (poolOf (V (Proc.devRef .tc main_arg2)) (act16From (V (Proc.devRef .tc main_v3)) (V (Proc.devRef .tc main_v6)) (V (Proc.devRef .tc main_v71)) (V (Proc.devRef .tc main_arg6)) (V (Proc.devRef .tc main_v48)))) := by
  simp only [opsE, ops, List.drop_succ_cons, List.drop_zero, List.take_succ_cons, List.take_zero]
  after_results_simp <;> rfl

/-! ## The arguments -/

/-- No operation of the line writes an argument's buffer. -/
theorem kept_main_arg0 : after ops V (Proc.devRef .tc main_arg0) = V (Proc.devRef .tc main_arg0) := by
  after_results_simp <;> rfl
theorem kept_main_arg1 : after ops V (Proc.devRef .tc main_arg1) = V (Proc.devRef .tc main_arg1) := by
  after_results_simp <;> rfl
theorem kept_main_arg2 : after ops V (Proc.devRef .tc main_arg2) = V (Proc.devRef .tc main_arg2) := by
  after_results_simp <;> rfl
theorem kept_main_arg3 : after ops V (Proc.devRef .tc main_arg3) = V (Proc.devRef .tc main_arg3) := by
  after_results_simp <;> rfl
theorem kept_main_arg4 : after ops V (Proc.devRef .tc main_arg4) = V (Proc.devRef .tc main_arg4) := by
  after_results_simp <;> rfl
theorem kept_main_arg5 : after ops V (Proc.devRef .tc main_arg5) = V (Proc.devRef .tc main_arg5) := by
  after_results_simp <;> rfl
theorem kept_main_arg6 : after ops V (Proc.devRef .tc main_arg6) = V (Proc.devRef .tc main_arg6) := by
  after_results_simp <;> rfl

/-! ## The result -/

/-- The reference's result buffer after the whole line: the shared network term of the launch contents of the
    arguments, with the host's two dense products between the stages. -/
theorem result : after ops V (Proc.devRef .tc main_v106)
    = network (fun x w => Host.dotGeneral dot_S100000x128_S128x64_S100000x64_1_0_0_1_n_n none x w)
        (fun h w => Host.dotGeneral dot_S100000x64_S64x16_S100000x16_1_0_0_1_n_n none h w)
        (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops, e_out, d_norm, d_main_v3, d_main_v6, d_main_v48, d_main_arg2, d_main_arg6,
    c_prod, c_main_v3, c_main_v6, c_main_arg2, c_main_arg6,
    b_prod, b_norm, b_main_v3, b_main_v6, b_main_arg2, b_main_arg4, b_main_arg5, b_main_arg6,
    a_src, a_dst, a_main_arg0, a_main_arg2, a_main_arg3, a_main_arg4, a_main_arg5, a_main_arg6]
  rfl

end Cert.ReferenceIdeal.RefValue

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«179536_j7645041787420_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.Products.lean ====
/-
  The two dense products, as the host computes them and as the kernel launches leave them, are the same arrays.

  Over the extended reals the host's `dot_general` of an `M × K` by a `K × N` array with the plain dimension numbers
  is, at entry `(a, b)`, the sum over `k` of `x (a, k) · w (k, b)`, whatever its precision and schedule; that sum is
  exactly the entry the row-blocked launches write. Sums of extended reals need no finiteness here: both sides are the
  same sum, term for term, in the same order.
-/
import proofs.«179536_j7645041787420_1_alg».proof.ReferenceIdeal
import proofs.«179536_j7645041787420_1_alg».proof.Proof.Gen.ReferenceIdeal
import proofs.«179536_j7645041787420_1_alg».proof.Proof.Region0
import proofs.«179536_j7645041787420_1_alg».proof.Proof.Region1
import proofs.«179536_j7645041787420_1_alg».proof.Proof.LibPlainDot

noncomputable section

namespace Cert.Products

open Idealize.ShloMosaic Idealize.ShloMosaic.ValueIdx

/-- The host's first product is the array the first launch leaves. -/
theorem first : (fun (x : FVec Ideal Cert.ReferenceIdeal.S100000x128 .f32) (w : FVec Ideal Cert.ReferenceIdeal.S128x64 .f32) =>
      Host.dotGeneral Cert.ReferenceIdeal.dot_S100000x128_S128x64_S100000x64_1_0_0_1_n_n none x w)
    = Cert.KernelIdeal.Region0.prod := by
  funext x w i
  obtain ⟨a, b, rfl⟩ : ∃ (a : Fin 100000) (b : Fin 64), i = ix2 a b := ⟨i 0, i 1, eq_ix2 i⟩
  unfold Cert.KernelIdeal.Region0.prod
  simp only [Host.dotGeneral]
  exact Cert.LibPlainDot.dotGeneral_plain_apply _ rfl rfl rfl rfl rfl rfl none _ x w a b

/-- The host's second product is the array the second launch leaves. -/
theorem second : (fun (h : FVec Ideal Cert.ReferenceIdeal.S100000x64 .f32) (w : FVec Ideal Cert.ReferenceIdeal.S64x16 .f32) =>
      Host.dotGeneral Cert.ReferenceIdeal.dot_S100000x64_S64x16_S100000x16_1_0_0_1_n_n none h w)
    = Cert.KernelIdeal.Region1.prod := by
  funext x w i
  obtain ⟨a, b, rfl⟩ : ∃ (a : Fin 100000) (b : Fin 16), i = ix2 a b := ⟨i 0, i 1, eq_ix2 i⟩
  unfold Cert.KernelIdeal.Region1.prod
  simp only [Host.dotGeneral]
  exact Cert.LibPlainDot.dotGeneral_plain_apply _ rfl rfl rfl rfl rfl rfl none _ x w a b

end Cert.Products

end
-- ==== Proof.lean ====
/-
  The certificate of a two-layer graph convolution with mean pooling against its plain reference.

  Both programs compute, from the edge list, the endpoint lists with self loops, the node degrees, their inverse square
  roots and the edge weights; then twice a dense product followed by "weight the gathered rows, add them up per target,
  add the bias, take tanh"; then the per-graph mean and the logistic function. They differ in two places only. The kernel
  program computes each dense product by a launch that walks five row blocks, narrowing both factors to a shorter float
  format first — the identity on the extended reals — and accumulating from zero, where the reference has one host
  product; entry by entry both are the same sum `∑ k, x (r, k) · w (k, j)`. And the kernel program computes the edge
  weights once and uses them in both layers, where the reference computes them a second time from the same endpoint lists:
  the same function of the same data. Nothing else differs, so the results are equal as extended reals for all inputs,
  and no law that needs finiteness (distributivity, cancellation) is used: the precondition is never opened.

  The three frames: the two kernel programs run through their five host stretches and two launches and leave the
  arguments as launched; the reference is a line of host operations none of which writes an argument. The idealization
  rewrote no operation of the kernel program, so there is nothing to preserve.
-/
import proofs.«179536_j7645041787420_1_alg».proof.Defs
import proofs.«179536_j7645041787420_1_alg».proof.Proof.Gen.Kernel
import proofs.«179536_j7645041787420_1_alg».proof.Proof.Gen.Kernel.Skeleton
import proofs.«179536_j7645041787420_1_alg».proof.Proof.Gen.Kernel.Launch
import proofs.«179536_j7645041787420_1_alg».proof.Proof.Gen.Kernel.Points
import proofs.«179536_j7645041787420_1_alg».proof.Proof.Gen.Kernel.Frame
import proofs.«179536_j7645041787420_1_alg».proof.Proof.Gen.KernelIdeal
import proofs.«179536_j7645041787420_1_alg».proof.Proof.Gen.KernelIdeal.Skeleton
import proofs.«179536_j7645041787420_1_alg».proof.Proof.Gen.KernelIdeal.Launch
import proofs.«179536_j7645041787420_1_alg».proof.Proof.Gen.KernelIdeal.Points
import proofs.«179536_j7645041787420_1_alg».proof.Proof.Gen.KernelIdeal.Frame
import proofs.«179536_j7645041787420_1_alg».proof.Proof.Gen.ReferenceIdeal
import proofs.«179536_j7645041787420_1_alg».proof.Proof.Gen.Pre_finite_inputs
import proofs.«179536_j7645041787420_1_alg».proof.Proof.KernelRun
import proofs.«179536_j7645041787420_1_alg».proof.Proof.KernelValue
import proofs.«179536_j7645041787420_1_alg».proof.Proof.RefValue
import proofs.«179536_j7645041787420_1_alg».proof.Proof.Products
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations, none of which writes an argument. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefValue.kept_main_arg0 _),
       (h c Cert.ReferenceIdeal.main_arg1).trans (Cert.ReferenceIdeal.RefValue.kept_main_arg1 _),
       (h c Cert.ReferenceIdeal.main_arg2).trans (Cert.ReferenceIdeal.RefValue.kept_main_arg2 _),
       (h c Cert.ReferenceIdeal.main_arg3).trans (Cert.ReferenceIdeal.RefValue.kept_main_arg3 _),
       (h c Cert.ReferenceIdeal.main_arg4).trans (Cert.ReferenceIdeal.RefValue.kept_main_arg4 _),
       (h c Cert.ReferenceIdeal.main_arg5).trans (Cert.ReferenceIdeal.RefValue.kept_main_arg5 _),
       (h c Cert.ReferenceIdeal.main_arg6).trans (Cert.ReferenceIdeal.RefValue.kept_main_arg6 _)⟩)
    (Cert.ReferenceIdeal.ValueP.run_after (F := Ideal) m ρ)

/-- The idealization rewrote nothing. -/
theorem preserves : Cert.preserves_Kernel_KernelIdeal := trivial

/-- Both idealized programs end at the shared network term of the arguments with plain matrix products between its
    stages: the kernel program by walking its boundaries back, the reference by reading its line of operations and
    reading the host's products as the same sums. -/
theorem algebraic : Cert.algebraic_KernelIdeal_ReferenceIdeal := by
  intro m ρ m' ρ' _ hagree
  refine ⟨fun c => Cert.KernelIdeal.Stages.network Cert.KernelIdeal.Region0.prod Cert.KernelIdeal.Region1.prod
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ClosedForm.result m ρ c), (h c).2⟩)
      (Cert.KernelIdeal.RunValue.run_result (F := Ideal) m ρ)
  · refine (θ_run Cert.ReferenceIdeal.defs _ _).mono (fun r h c => ⟨?_,
       (h c Cert.ReferenceIdeal.main_arg0).trans (Cert.ReferenceIdeal.RefValue.kept_main_arg0 _),
       (h c Cert.ReferenceIdeal.main_arg1).trans (Cert.ReferenceIdeal.RefValue.kept_main_arg1 _),
       (h c Cert.ReferenceIdeal.main_arg2).trans (Cert.ReferenceIdeal.RefValue.kept_main_arg2 _),
       (h c Cert.ReferenceIdeal.main_arg3).trans (Cert.ReferenceIdeal.RefValue.kept_main_arg3 _),
       (h c Cert.ReferenceIdeal.main_arg4).trans (Cert.ReferenceIdeal.RefValue.kept_main_arg4 _),
       (h c Cert.ReferenceIdeal.main_arg5).trans (Cert.ReferenceIdeal.RefValue.kept_main_arg5 _),
       (h c Cert.ReferenceIdeal.main_arg6).trans (Cert.ReferenceIdeal.RefValue.kept_main_arg6 _)⟩)
      (Cert.ReferenceIdeal.ValueP.run_after (F := Ideal) m' ρ')
    refine (h c Cert.ReferenceIdeal.main_v106).trans ((Cert.ReferenceIdeal.RefValue.result _).trans ?_)
    rw [Cert.Products.first, Cert.Products.second]
    obtain ⟨h0, h1, h2, h3, h4, h5, h6⟩ := hagree c
    show Cert.KernelIdeal.Stages.network Cert.KernelIdeal.Region0.prod Cert.KernelIdeal.Region1.prod
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
